-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144x64 : Shape := ⟨2, ![262144, 64]⟩
abbrev S64x128 : Shape := ⟨2, ![64, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144x64 : S_.BroadcastsInDim S262144x64 (![] : Fin 0 → Fin S262144x64.rank)
  reducesTo_S262144x64_S_d0_1 : S262144x64.ReducesTo [0, 1] S_
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S262144x128 .f32) (main_arg1 : FVec F S262144x64 .f32) (main_arg2 : FVec F S64x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x64 .f32 := Host.absf main_arg1
  let main_cst_0 : FVec F S_ .f32 := constant S_ .f32 0x7F800000#32
  let main_v5 : FVec F S262144x64 .f32 := broadcastInDim S262144x64 ![] bcast_S_S262144x64 main_cst_0
  let main_v6 : IVec S262144x64 1 := cmpf .olt main_v4 main_v5
  let main_c_1 : IVec S_ 1 := constantI S_ 1 1#1
  let main_v7 : IVec S_ 1 := (fun x v => Host.reduce IntOp.andi x v reducesTo_S262144x64_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  main_v13
-- ==== Kernel.lean ====
abbrev S262144x128 : Shape := ⟨2, ![262144, 128]⟩
abbrev S262144x64 : Shape := ⟨2, ![262144, 64]⟩
abbrev S64x128 : Shape := ⟨2, ![64, 128]⟩
abbrev S_ : Shape := ⟨0, ![]⟩
abbrev S64 : Shape := ⟨1, ![64]⟩
abbrev S64x1 : Shape := ⟨2, ![64, 1]⟩
abbrev S1x64 : Shape := ⟨2, ![1, 64]⟩
abbrev S1x1 : Shape := ⟨2, ![1, 1]⟩
abbrev S8192x128 : Shape := ⟨2, ![8192, 128]⟩
abbrev S8192x64 : Shape := ⟨2, ![8192, 64]⟩
abbrev S8192 : Shape := ⟨1, ![8192]⟩
abbrev S8192x1 : Shape := ⟨2, ![8192, 1]⟩
abbrev S1 : Shape := ⟨1, ![1]⟩

abbrev nBuf : Space → Nat
  | .hbm => 10
  | .vmem => 8
  | .smem => 0
  | _ => 0

abbrev bufTy : (tb : Table) → Fin (tcTables nBuf tb) → BufTy
  | .hbm, ⟨0, _⟩ => ⟨S262144x128, .f32⟩
  | .hbm, ⟨1, _⟩ => ⟨S262144x64, .f32⟩
  | .hbm, ⟨2, _⟩ => ⟨S64x128, .f32⟩
  | .hbm, ⟨3, _⟩ => ⟨S64x128, .f32⟩
  | .hbm, ⟨4, _⟩ => ⟨S_, .f32⟩
  | .hbm, ⟨5, _⟩ => ⟨S64, .f32⟩
  | .hbm, ⟨6, _⟩ => ⟨S64x1, .f32⟩
  | .hbm, ⟨7, _⟩ => ⟨S1x64, .f32⟩
  | .hbm, ⟨8, _⟩ => ⟨S1x1, .f32⟩
  | .hbm, ⟨9, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x64, .f32⟩
  | .local _ .vmem, ⟨3, _⟩ => ⟨S8192x64, .f32⟩
  | .local _ .vmem, ⟨4, _⟩ => ⟨S64x128, .f32⟩
  | .local _ .vmem, ⟨5, _⟩ => ⟨S1x64, .f32⟩
  | .local _ .vmem, ⟨6, _⟩ => ⟨S1x1, .f32⟩
  | .local _ .vmem, ⟨7, _⟩ => ⟨S1x1, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v31 : BitVec 1 := Scalar.cmpi .eq arg0 c31_i32
  let v32 : BitVec 32 := Scalar.extui v31
  let c0_i32_16 : BitVec 32 := 0#32
  let v33 : BitVec 1 := Scalar.cmpi .ne v32 c0_i32_16
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  reducesTo_S64x128_S64_d1 : S64x128.ReducesTo [1] S64
  h_S_ : 0 < S_.numel
  bcast_S64_S64x1_0 : S64.BroadcastsInDim S64x1 (![0] : Fin 1 → Fin S64x1.rank)
  transposes_S64x1_S1x64_1_0 : S64x1.Transposes [1, 0] S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x128_S8192x128_0_0 : ∀ a, (![0, 0] : Fin 2 → Nat) a + S8192x128.size a ≤ S8192x128.size a
  h_S8192x128 : 0 < S8192x128.numel
  inb_S8192x64_S8192x64_0_0 : ∀ a, (![0, 0] : Fin 2 → Nat) a + S8192x64.size a ≤ S8192x64.size a
  h_S8192x64 : 0 < S8192x64.numel
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S8192x128_S8192 : S8192x128.Reduces [1] S8192
  shapeCasts_S8192_S8192x1 : S8192.ShapeCasts S8192x1
  bitsLt_bf16_f32 : FTy.bits .bf16 < FTy.bits .f32
  broadcasts_S8192x1_S8192x64 : S8192x1.Broadcasts S8192x64
  broadcasts_S1x64_S8192x64 : S1x64.Broadcasts S8192x64
  reduces_S8192x64_S8192 : S8192x64.Reduces [1] S8192
  reduces_S8192x1_S1 : S8192x1.Reduces [0] S1
  shapeCasts_S1_S1x1 : S1.ShapeCasts S1x1
  shapeCasts_S1x1_S_ : S1x1.ShapeCasts S_
  dot_S8192x128_S64x128_S8192x64_1_1_0_0_n_n_wf : DotDims.WF S8192x128 S64x128 S8192x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S262144x64.size a
  hwx0_1 : ∀ i : grid0.Coords, EltTy.bits .f32 = 32 ∨ (Rect.block (s := S262144x64) S8192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S8192x128_S64x128_S8192x64_1_1_0_0_n_n : DotDims S8192x128 S64x128 S8192x64 where
  lhsContracting := [1]
  rhsContracting := [1]
  lhsNonContracting := [0]
  rhsNonContracting := [0]
  lhsBatch := []
  rhsBatch := []
  wf := dot_S8192x128_S64x128_S8192x64_1_1_0_0_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S262144x128 : Shape := ⟨2, ![262144, 128]⟩
abbrev S262144x64 : Shape := ⟨2, ![262144, 64]⟩
abbrev S64x128 : Shape := ⟨2, ![64, 128]⟩
abbrev S_ : Shape := ⟨0, ![]⟩
abbrev S262144 : Shape := ⟨1, ![262144]⟩
abbrev S262144x1 : Shape := ⟨2, ![262144, 1]⟩
abbrev S64 : Shape := ⟨1, ![64]⟩
abbrev S1x64 : Shape := ⟨2, ![1, 64]⟩
abbrev S128x64 : Shape := ⟨2, ![128, 64]⟩

abbrev nBuf : Space → Nat
  | .hbm => 28
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x64, .f32⟩
  | .hbm, ⟨2, _⟩ => ⟨S64x128, .f32⟩
  | .hbm, ⟨3, _⟩ => ⟨S262144x128, .f32⟩
  | .hbm, ⟨4, _⟩ => ⟨S_, .f32⟩
  | .hbm, ⟨5, _⟩ => ⟨S262144, .f32⟩
  | .hbm, ⟨6, _⟩ => ⟨S262144x1, .f32⟩
  | .hbm, ⟨7, _⟩ => ⟨S64x128, .f32⟩
  | .hbm, ⟨8, _⟩ => ⟨S_, .f32⟩
  | .hbm, ⟨9, _⟩ => ⟨S64, .f32⟩
  | .hbm, ⟨10, _⟩ => ⟨S1x64, .f32⟩
  | .hbm, ⟨11, _⟩ => ⟨S262144x64, .f32⟩
  | .hbm, ⟨12, _⟩ => ⟨S262144x64, .f32⟩
  | .hbm, ⟨13, _⟩ => ⟨S262144x64, .f32⟩
  | .hbm, ⟨14, _⟩ => ⟨S128x64, .f32⟩
  | .hbm, ⟨15, _⟩ => ⟨S262144x64, .f32⟩
  | .hbm, ⟨16, _⟩ => ⟨S_, .f32⟩
  | .hbm, ⟨17, _⟩ => ⟨S262144x64, .f32⟩
  | .hbm, ⟨18, _⟩ => ⟨S262144x64, .f32⟩
  | .hbm, ⟨19, _⟩ => ⟨S262144x64, .f32⟩
  | .hbm, ⟨20, _⟩ => ⟨S_, .f32⟩
  | .hbm, ⟨21, _⟩ => ⟨S262144x64, .f32⟩
  | .hbm, ⟨22, _⟩ => ⟨S262144x64, .f32⟩
  | .hbm, ⟨23, _⟩ => ⟨S262144x64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  reducesTo_S262144x128_S262144_d1 : S262144x128.ReducesTo [1] S262144
  h_S_ : 0 < S_.numel
  bcast_S262144_S262144x1_0 : S262144.BroadcastsInDim S262144x1 (![0] : Fin 1 → Fin S262144x1.rank)
  reducesTo_S64x128_S64_d1 : S64x128.ReducesTo [1] S64
  bcast_S64_S1x64_1 : S64.BroadcastsInDim S1x64 (![1] : Fin 1 → Fin S1x64.rank)
  bcast_S262144x1_S262144x64_0_1 : S262144x1.BroadcastsInDim S262144x64 (![0, 1] : Fin 2 → Fin S262144x64.rank)
  bcast_S1x64_S262144x64_0_1 : S1x64.BroadcastsInDim S262144x64 (![0, 1] : Fin 2 → Fin S262144x64.rank)
  transposes_S64x128_S128x64_1_0 : S64x128.Transposes [1, 0] S128x64
  bcast_S_S262144x64 : S_.BroadcastsInDim S262144x64 (![] : Fin 0 → Fin S262144x64.rank)
  reducesTo_S262144x64_S_d0_1 : S262144x64.ReducesTo [0, 1] S_
  dot_S262144x128_S128x64_S262144x64_1_0_0_1_n_n_wf : DotDims.WF S262144x128 S128x64 S262144x64 [1] [0] [0] [1] [] []

variable [Facts₀]

def dot_S262144x128_S128x64_S262144x64_1_0_0_1_n_n : DotDims S262144x128 S128x64 S262144x64 where
  lhsContracting := [1]
  rhsContracting := [0]
  lhsNonContracting := [0]
  rhsNonContracting := [1]
  lhsBatch := []
  rhsBatch := []
  wf := dot_S262144x128_S128x64_S262144x64_1_0_0_1_n_n_wf

class Facts : Prop extends Facts₀ where

variable [Facts]
-- ==== Proof.Pieces.lean ====
/-
  What each control case of the body leaves behind, as values of the body's arithmetic.

  The accumulator (a 1×1 scratch kept between grid points) is stored whole by every case: at the first point the body first
  stores the zero word, reads it back and stores that plus the block's sum; at every later point it stores what the point
  before left plus the block's sum. At the last point the body also stores, into the 1×1 output, the accumulator it has
  just written times γ. Each store covers its 1×1 buffer, so what a buffer holds afterwards is its last store's value.
-/
import proofs.«152521_j18494129176961_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz : (![0, 0] : Fin 2 → Nat) = fun _ => 0 := funext fun a => by fin_cases a <;> rfl

/-- A middle point leaves in the accumulator what it found there plus its block's sum. -/
theorem scratch_B (c : Dev nD) (i : grid0.Coords) (arg1 : Memref sig .tc .vmem S8192x128 .f32) (harg1 : arg1.IsWhole) (arg2 : Memref sig .tc .vmem S8192x64 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S8192x128 .f32) (x1 : Vec F S8192x64 .f32) (x2 : Vec F S64x128 .f32) (x3 : Vec F S1x64 .f32) (xs0 : Vec F S1x1 .f32) :
    sout0_B_0 c i arg1 harg1 arg2 harg2 arg3 harg3 arg4 harg4 arg5 harg5 arg6 harg6 hc0 hc1 x0 x1 x2 x3 xs0 = k0_pay2 x0 x1 x2 x3 xs0 := by
  unfold sout0_B_0
  rw [View.read_writes_eq_canon _ _ _ (scover0_B_0 c i arg1 harg1 arg2 harg2 arg3 harg3 arg4 harg4 arg5 harg5 arg6 harg6 hc0 hc1 x0 x1 x2 x3 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, View.ld_unit_zero (S := S8192x128) hz, View.ld_unit_zero (S := S8192x64) hz, View.ld_unit_zero (S := S64x128) hz, View.ld_unit_zero (S := S1x64) hz, View.ld_unit_zero (S := S1x1) hz]

/-- The last point leaves in the accumulator what it found there plus its block's sum, -/
theorem scratch_C (c : Dev nD) (i : grid0.Coords) (arg1 : Memref sig .tc .vmem S8192x128 .f32) (harg1 : arg1.IsWhole) (arg2 : Memref sig .tc .vmem S8192x64 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8192x128 .f32) (x1 : Vec F S8192x64 .f32) (x2 : Vec F S64x128 .f32) (x3 : Vec F S1x64 .f32) (xs0 : Vec F S1x1 .f32) :
    sout0_C_0 c i arg1 harg1 arg2 harg2 arg3 harg3 arg4 harg4 arg5 harg5 arg6 harg6 hc0 hc1 x0 x1 x2 x3 xs0 = k0_pay2 x0 x1 x2 x3 xs0 := by
  unfold sout0_C_0
  rw [View.read_writes_eq_canon _ _ _ (scover0_C_0 c i arg1 harg1 arg2 harg2 arg3 harg3 arg4 harg4 arg5 harg5 arg6 harg6 hc0 hc1 x0 x1 x2 x3 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, View.ld_unit_zero (S := S8192x128) hz, View.ld_unit_zero (S := S8192x64) hz, View.ld_unit_zero (S := S64x128) hz, View.ld_unit_zero (S := S1x64) hz, View.ld_unit_zero (S := S1x1) hz]

/-- and in the output that accumulator scaled. -/
theorem out_C (c : Dev nD) (i : grid0.Coords) (arg1 : Memref sig .tc .vmem S8192x128 .f32) (harg1 : arg1.IsWhole) (arg2 : Memref sig .tc .vmem S8192x64 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8192x128 .f32) (x1 : Vec F S8192x64 .f32) (x2 : Vec F S64x128 .f32) (x3 : Vec F S1x64 .f32) (xs0 : Vec F S1x1 .f32) :
    out0_C_4 c i arg1 harg1 arg2 harg2 arg3 harg3 arg4 harg4 arg5 harg5 arg6 harg6 hc0 hc1 x0 x1 x2 x3 xs0 = k0_pay3 (k0_pay2 x0 x1 x2 x3 xs0) := by
  unfold out0_C_4
  rw [View.read_writes_eq_canon _ _ _ (cover0_C_4 c i arg1 harg1 arg2 harg2 arg3 harg3 arg4 harg4 arg5 harg5 arg6 harg6 hc0 hc1 x0 x1 x2 x3 xs0)]
  unfold kernelRun0_C
  dsimp only
  sl_unfold_words
  rw [View.canon_unit_zero hz, View.readCov_unit_zero (S := S1x1) _ hz]
  simp only [View.readAt_eq_ld, harg1.read_unread, harg2.read_unread, harg3.read_unread, harg4.read_unread, harg5.read_unread, harg6.read_unread, View.ld_unit_zero (S := S8192x128) hz, View.ld_unit_zero (S := S8192x64) hz, View.ld_unit_zero (S := S64x128) hz, View.ld_unit_zero (S := S1x64) hz, View.ld_unit_zero (S := S1x1) hz]

/-- The first point leaves in the accumulator the zero word plus its block's sum. -/
theorem scratch_A (c : Dev nD) (i : grid0.Coords) (arg1 : Memref sig .tc .vmem S8192x128 .f32) (harg1 : arg1.IsWhole) (arg2 : Memref sig .tc .vmem S8192x64 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S8192x128 .f32) (x1 : Vec F S8192x64 .f32) (x2 : Vec F S64x128 .f32) (x3 : Vec F S1x64 .f32) :
    sout0_A_0 c i arg1 harg1 arg2 harg2 arg3 harg3 arg4 harg4 arg5 harg5 arg6 harg6 hc0 hc1 x0 x1 x2 x3 = k0_pay2 x0 x1 x2 x3 (k0_pay1 (F := F)) := by
  unfold sout0_A_0
  rw [View.read_writes_eq_canon _ _ _ (scover0_A_0 c i arg1 harg1 arg2 harg2 arg3 harg3 arg4 harg4 arg5 harg5 arg6 harg6 hc0 hc1 x0 x1 x2 x3)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, View.ld_unit_zero (S := S8192x128) hz, View.ld_unit_zero (S := S8192x64) hz, View.ld_unit_zero (S := S64x128) hz, View.ld_unit_zero (S := S1x64) hz, View.ld_unit_zero (S := S1x1) hz]

end Cert.KernelIdeal.Pieces

end
-- ==== Proof.LibBlockSum.lean ====
/-
  Regrouping a sum over `Fin (a * b)` as `a` blocks of `b` consecutive terms.
-/
import Idealize.ShloMosaic.PureOps.Ideal

namespace Cert.LibBlockSum

/-- The position `k * b + j` of the `j`-th entry of block `k` lies below `a * b`. -/
theorem block_lt {a b : Nat} (k : Fin a) (j : Fin b) : k.val * b + j.val < a * b := by
  have hk : k.val + 1 ≤ a := k.isLt
  have hj : j.val < b := j.isLt
  calc k.val * b + j.val < k.val * b + b := by omega
    _ = (k.val + 1) * b := by ring
    _ ≤ a * b := Nat.mul_le_mul_right b hk

/-- A sum over `Fin (a * b)` is the sum over the `a` blocks of the sums of the `b` consecutive
terms of each block: `∑ n, f n = ∑ k, ∑ j, f (k * b + j)`. -/
theorem sum_blocks {M : Type*} [AddCommMonoid M] (a b : Nat) (f : Fin (a * b) → M) :
    ∑ n : Fin (a * b), f n
      = ∑ k : Fin a, ∑ j : Fin b, f ⟨k.val * b + j.val, block_lt k j⟩ := by
  -- the bijection (k, j) ↦ j + b * k of Mathlib, then the sum over a product as a double sum
  rw [← (finProdFinEquiv : Fin a × Fin b ≃ Fin (a * b)).sum_comp f, Fintype.sum_prod_type]
  refine Finset.sum_congr rfl (fun k _ => Finset.sum_congr rfl (fun j _ => ?_))
  congr 1
  apply Fin.ext
  simp [finProdFinEquiv, Nat.mul_comm, Nat.add_comm]

/-- The same regrouping when the length is given as a number `N` known to equal `a * b`. -/
theorem sum_blocks_of_eq {M : Type*} [AddCommMonoid M] {N : Nat} (a b : Nat) (h : a * b = N)
    (f : Fin N → M) :
    ∑ n : Fin N, f n
      = ∑ k : Fin a, ∑ j : Fin b, f ⟨k.val * b + j.val, h ▸ block_lt k j⟩ := by
  subst h
  exact sum_blocks a b f

/-- The instance used for 16384 nodes read as 4 blocks of 4096: a sum of extended reals over
`Fin 16384` is the sum over the 4 blocks of the sums of the 4096 terms of each block. -/
theorem sum_16384_blocks (g : Fin 16384 → EReal) :
    ∑ n : Fin 16384, g n
      = ∑ k : Fin 4, ∑ j : Fin 4096, g ⟨k.val * 4096 + j.val, by omega⟩ := by
  exact sum_blocks_of_eq (N := 16384) 4 4096 (by norm_num) g

end Cert.LibBlockSum
-- ==== Proof.Spec.lean ====
/-
  The fuzzy c-means loss on the extended reals, entry by entry.

  For points x (rows of an N×128 matrix), centres v (rows of a 64×128 matrix) and memberships u (N×64) the loss is
  γ · Σₙ Σₖ q(u[n,k]) · ((|xₙ|² + |vₖ|²) − 2·(xₙ·vₖ)), where q squares the membership. One program squares by a
  product u·u and sums block of 8192 rows by block; the other squares by a power with exponent 2 and sums all entries at
  once. Sums of extended reals may be regrouped freely (addition is commutative and associative with the infinities
  included), γ commutes with the sum, and u·u is the power u² exactly when u is a real: the power of −∞ is −∞, its
  product with itself +∞.
-/
import Idealize.ShloMosaic.Lib.ValueIdx
import Idealize.ShloMosaic.PureOps.Ideal.Laws
import proofs.«152521_j18494129176961_1_alg».proof.Proof.LibBlockSum

noncomputable section

open scoped BigOperators

namespace Cert.Fcm

open Idealize.ShloMosaic Idealize.ShloMosaic.ValueIdx

/-- A matrix of extended reals with `a` rows and `b` columns. -/
abbrev Mat (a b : ℕ) : Type := (⟨2, ![a, b]⟩ : Shape).Idx → EReal

/-- The f32 word of 2, the factor of the inner product, as both programs print it. -/
abbrev two : EReal := Ideal.ofBits .f32 0x40000000#32
/-- The f32 word of the loss scale γ, as both programs print it. -/
abbrev gam : EReal := Ideal.ofBits .f32 0x358637BD#32

/-- The squared length of row `n`. -/
def sqRow {a : ℕ} (x : Mat a 128) (n : Fin a) : EReal := ∑ d : Fin 128, x (ix2 n d) * x (ix2 n d)

/-- The inner product of row `n` of `x` with row `k` of `v`. -/
def dotRow {a b : ℕ} (x : Mat a 128) (v : Mat b 128) (n : Fin a) (k : Fin b) : EReal :=
  ∑ d : Fin 128, x (ix2 n d) * v (ix2 k d)

/-- One term of the loss: the squared membership `q` times the squared distance written out. -/
def term (q s2x s2v xv : EReal) : EReal := q * ((s2x + s2v) - two * xv)

/-- The sum of the terms of a block of `a` rows, the squared lengths of the centres given as a one-row matrix and the
    membership squared by a product. -/
def blockSum {a : ℕ} (xb : Mat a 128) (ub : Mat a 64) (vb : Mat 64 128) (v2 : Mat 1 64) : EReal :=
  ∑ r : Fin a, ∑ k : Fin 64, term (ub (ix2 r k) * ub (ix2 r k)) (sqRow xb r) (v2 (ix2 (0 : Fin 1) k)) (dotRow xb vb r k)

/-- The term at (n, k) of the whole arrays, the membership squared by a product. -/
def termMul (x : Mat 262144 128) (u : Mat 262144 64) (v : Mat 64 128) (n : Fin 262144) (k : Fin 64) : EReal :=
  term (u (ix2 n k) * u (ix2 n k)) (sqRow x n) (sqRow v k) (dotRow x v n k)

/-- The term at (n, k) of the whole arrays, the membership squared by the power with exponent the word of 2. -/
def termPow (x : Mat 262144 128) (u : Mat 262144 64) (v : Mat 64 128) (n : Fin 262144) (k : Fin 64) : EReal :=
  term (Ideal.pow (u (ix2 n k)) two) (sqRow x n) (sqRow v k) (dotRow x v n k)

/-- Row `r` of block `s` of 8192 rows, among the 262144. -/
abbrev rowOf (s : Fin 32) (r : Fin 8192) : Fin 262144 := ⟨s.val * 8192 + r.val, by have := s.isLt; have := r.isLt; omega⟩

/-- The loss summed block by block, scaled on the right. -/
def lossBlocks (x : Mat 262144 128) (u : Mat 262144 64) (v : Mat 64 128) : EReal :=
  (∑ s : Fin 32, ∑ r : Fin 8192, ∑ k : Fin 64, termMul x u v (rowOf s r) k) * gam

/-- The loss summed over all entries at once, scaled on the left. -/
def lossAll (x : Mat 262144 128) (u : Mat 262144 64) (v : Mat 64 128) : EReal :=
  gam * ∑ j : (⟨2, ![262144, 64]⟩ : Shape).Idx, termPow x u v (j 0) (j 1)

/-- The f32 word of 2 denotes the real 2. -/
theorem two_eq : two = ((2 : ℝ) : EReal) := by
  unfold two
  simp [Ideal.ofBits, Ideal.ieee, -EReal.coe_mul]; norm_num

/-- The power with exponent 2 of a real is its product with itself. -/
theorem pow_two_of_real (r : ℝ) : Ideal.pow (r : EReal) two = (r : EReal) * (r : EReal) := by
  rw [two_eq, Ideal.pow_coe_coe, ← EReal.coe_mul]
  congr 1
  show r ^ (2 : ℝ) = r * r
  rw [Real.rpow_two, sq]

/-- For real memberships the two ways of squaring give one term. -/
theorem termPow_eq_termMul (x : Mat 262144 128) (u : Mat 262144 64) (v : Mat 64 128)
    (hu : ∀ j, ∃ r : ℝ, u j = (r : EReal)) (n : Fin 262144) (k : Fin 64) : termPow x u v n k = termMul x u v n k := by
  obtain ⟨r, hr⟩ := hu (ix2 n k)
  unfold termPow termMul
  rw [hr, pow_two_of_real]

/-- A sum over the entries of the 262144×64 table is the sum over the 32 blocks of 8192 rows, each row summed over its 64
    columns. -/
theorem sum_entries_blocks (f : Fin 262144 → Fin 64 → EReal) :
    ∑ j : (⟨2, ![262144, 64]⟩ : Shape).Idx, f (j 0) (j 1) = ∑ s : Fin 32, ∑ r : Fin 8192, ∑ k : Fin 64, f (rowOf s r) k := by
  rw [sum_idx2 (n0 := 262144) (n1 := 64) (fun j : (⟨2, ![262144, 64]⟩ : Shape).Idx => f (j 0) (j 1))]
  exact Cert.LibBlockSum.sum_blocks_of_eq (N := 262144) 32 8192 (by norm_num) (fun n => ∑ k : Fin 64, f n k)

/-- The two losses agree when every membership is a real. -/
theorem lossAll_eq_lossBlocks (x : Mat 262144 128) (u : Mat 262144 64) (v : Mat 64 128)
    (hu : ∀ j, ∃ r : ℝ, u j = (r : EReal)) : lossAll x u v = lossBlocks x u v := by
  unfold lossAll lossBlocks
  rw [mul_comm, sum_entries_blocks (fun n k => termPow x u v n k)]
  refine congrArg (· * gam) (Finset.sum_congr rfl fun s _ => Finset.sum_congr rfl fun r _ => Finset.sum_congr rfl fun k _ => ?_)
  exact termPow_eq_termMul x u v hu _ _

/-- The running total over the points of a grid: the first point's block sum, then one more per point. -/
def running {N : ℕ} (bs : Fin N → EReal) : (n : ℕ) → n < N → EReal
  | 0, h => bs ⟨0, h⟩
  | n + 1, h => running bs n (Nat.lt_of_succ_lt h) + bs ⟨n + 1, h⟩

/-- The running total after point `n` is the sum of the block sums of the points up to `n`. -/
theorem running_eq_sum {N : ℕ} (bs : Fin N → EReal) : ∀ (n : ℕ) (h : n < N),
    running bs n h = ∑ s ∈ Finset.range (n + 1), if hs : s < N then bs ⟨s, hs⟩ else 0
  | 0, h => by
    rw [Finset.sum_range_one, dif_pos h]; rfl
  | n + 1, h => by
    rw [Finset.sum_range_succ, dif_pos h, ← running_eq_sum bs n (Nat.lt_of_succ_lt h)]; rfl

/-- After the last point the running total is the sum over all points. -/
theorem running_last {N : ℕ} (bs : Fin N → EReal) (n : ℕ) (h : n < N) (hn : n + 1 = N) :
    running bs n h = ∑ s : Fin N, bs s := by
  subst hn
  rw [running_eq_sum, ← Fin.sum_univ_eq_sum_range (fun s => if hs : s < n + 1 then bs ⟨s, hs⟩ else 0) (n + 1)]
  exact Finset.sum_congr rfl fun s _ => by rw [dif_pos s.isLt]

end Cert.Fcm

end
-- ==== Proof.LibColumn.lean ====
/-
  A vector laid out as a column, and scalars broadcast, read at an entry.

  A vector of n entries becomes a 1×n matrix by a cast, and an n×1 matrix either by a cast (row-major positions agree: entry r of the vector sits at
  (r, 0)) or by a broadcast along the new axis; a one-entry vector becomes a scalar by a cast; a scalar broadcast to any
  shape is that scalar at every entry; a one-entry vector broadcast over n entries is its one entry everywhere.
-/
import Idealize.ShloMosaic.Lib.ValueIdx
import Idealize.ShloMosaic.Lib.Pipeline.Value

noncomputable section

namespace Cert.Layout

open Idealize.ShloMosaic Idealize.ShloMosaic.ValueIdx

variable {α : Type} {n : ℕ}

/-- The one index of a rank-0 shape is at row-major position 0. -/
theorem rowMajor_val_rank0 (d : Fin 0 → Nat) (i : (⟨0, d⟩ : Shape).Idx) : ((⟨0, d⟩ : Shape).rowMajor i).val = 0 :=
  Shape.rowMajorPi_zero d i

/-- A vector cast to a column, read at (r, q): the vector's entry r. -/
theorem cast_vec_col_apply (v : (⟨1, ![n]⟩ : Shape).Idx → α) (h : (⟨1, ![n]⟩ : Shape).ShapeCasts ⟨2, ![n, 1]⟩) (r : Fin n) (q : Fin 1) :
    shapeCast ⟨2, ![n, 1]⟩ v h (ix2 r q) = v (ix1 r) :=
  shapeCast_apply v h (ix2 r q) (ix1 r) (by
    rw [Shape.rowMajor_val_two, Shape.rowMajor_val_one]
    show r.val = r.val * 1 + q.val
    have := q.isLt
    omega)

/-- A vector cast to a one-row matrix, read at (0, q): the vector's entry q. -/
theorem cast_vec_row_apply (v : (⟨1, ![n]⟩ : Shape).Idx → α) (h : (⟨1, ![n]⟩ : Shape).ShapeCasts ⟨2, ![1, n]⟩) (q : Fin n) :
    shapeCast ⟨2, ![1, n]⟩ v h (ix2 (0 : Fin 1) q) = v (ix1 q) :=
  shapeCast_apply v h (ix2 (0 : Fin 1) q) (ix1 q) (by
    rw [Shape.rowMajor_val_two, Shape.rowMajor_val_one]
    show q.val = (0 : Fin 1).val * n + q.val
    simp)

/-- A one-entry vector cast to a scalar: its one entry. -/
theorem cast_one_scalar_apply (v : (⟨1, ![1]⟩ : Shape).Idx → α) (h : (⟨1, ![1]⟩ : Shape).ShapeCasts ⟨0, ![]⟩) (j : (⟨0, ![]⟩ : Shape).Idx) :
    shapeCast ⟨0, ![]⟩ v h j = v (ix1 (0 : Fin 1)) :=
  shapeCast_apply v h j (ix1 (0 : Fin 1)) (by
    rw [Shape.rowMajor_val_one, rowMajor_val_rank0]
    rfl)

/-- A scalar broadcast to a shape, read anywhere: the scalar. -/
theorem bcast_scalar_apply {s : Shape} (v : (⟨0, ![]⟩ : Shape).Idx → α) (h : (⟨0, ![]⟩ : Shape).BroadcastsInDim s ![]) (j : s.Idx) :
    broadcastInDim s ![] h v j = v ix0 :=
  broadcastInDim_apply ![] h v j ix0 (fun ax => ax.elim0)

/-- A one-entry vector broadcast over n entries, read at r: its one entry. -/
theorem bcast_one_vec_apply (v : (⟨1, ![1]⟩ : Shape).Idx → α) (h : (⟨1, ![1]⟩ : Shape).BroadcastsInDim ⟨1, ![n]⟩ ![0]) (r : Fin n) :
    broadcastInDim ⟨1, ![n]⟩ ![0] h v (ix1 r) = v (ix1 (0 : Fin 1)) :=
  broadcastInDim_apply ![0] h v (ix1 r) (ix1 (0 : Fin 1)) (fun ax => by
    match ax with
    | ⟨0, _⟩ =>
      show (0 : ℕ) = if (1 : ℕ) = 1 then 0 else r.val
      rfl)

/-- A vector broadcast to a column along a new second axis, read at (r, q): the vector's entry r. -/
theorem bcast_vec_col_apply (v : (⟨1, ![n]⟩ : Shape).Idx → α) (h : (⟨1, ![n]⟩ : Shape).BroadcastsInDim ⟨2, ![n, 1]⟩ ![0]) (r : Fin n) (q : Fin 1) :
    broadcastInDim ⟨2, ![n, 1]⟩ ![0] h v (ix2 r q) = v (ix1 r) :=
  broadcastInDim_apply ![0] h v (ix2 r q) (ix1 r) (fun ax => by
    match ax with
    | ⟨0, _⟩ =>
      show r.val = if n = 1 then 0 else r.val
      split
      · have := r.isLt; omega
      · rfl)

end Cert.Layout

end
-- ==== Proof.Payload.lean ====
/-
  The body's arithmetic at its one entry.

  On a block of 8192 rows the body forms, for every row r and centre k, the squared membership u[r,k]·u[r,k] times
  (|x_r|² + c_k) − 2·(x_r·v_k), where |x_r|² is the row's lane sum of squares kept as a column, c the one-row matrix of the
  centres' squared lengths spread over the rows, and x_r·v_k the matrix unit's product of the block with the centres
  contracted over the 128 columns of both (narrowing the operands to a shorter float format changes nothing on the extended
  reals, and the zero accumulator adds nothing). It sums each row over the 64 centres, sums the 8192 row sums, and adds the
  total to the accumulator it read. The first point's accumulator is the word of zero; the last point's output is the
  accumulator times γ.
-/
import proofs.«152521_j18494129176961_1_alg».proof.Proof.Gen.KernelIdeal.Skeleton
import proofs.«152521_j18494129176961_1_alg».proof.Proof.Spec
import proofs.«152521_j18494129176961_1_alg».proof.Proof.LibColumn
import Idealize.ShloMosaic.Lib.ValueLayout
import Idealize.ShloMosaic.Lib.Pipeline.Value

noncomputable section

namespace Cert.KernelIdeal.Pay

open Cert.KernelIdeal Cert.KernelIdeal.Gen Cert.Fcm Idealize.ShloMosaic Idealize.ShloMosaic.ValueIdx

/-- The one index of a 1×1 array. -/
theorem idx11 (j : S1x1.Idx) : j = ix2 (0 : Fin 1) (0 : Fin 1) :=
  funext fun a => Fin.ext (by
    match a with
    | ⟨0, _⟩ => have h : (j 0).val < 1 := (j 0).isLt; show (j 0).val = 0; omega
    | ⟨1, _⟩ => have h : (j 1).val < 1 := (j 1).isLt; show (j 1).val = 0; omega)

/-- A column spread along the rows: [a,1] → [a,b] read at (p, c) is the column's entry p. -/
theorem bcast_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum over the 128 columns of a block, at row r. -/
theorem lane_sum_x (src : FVec Ideal S8192x128 .f32) (r : Fin 8192) :
    multiReduction (F := Ideal) .add [1] S8192 src 0x00000000#32 reduces_S8192x128_S8192 (.inl rfl) rfl (ix1 r)
      = ∑ d : Fin 128, src (ix2 r d) :=
  (Ideal.multiReduction_add_single src 0x00000000#32 reduces_S8192x128_S8192 (.inl rfl) rfl (ix1 r)).trans
    (Finset.sum_congr rfl fun d _ => congrArg src (funext fun a => Fin.ext (by
      match a with | ⟨0, _⟩ => rfl | ⟨1, _⟩ => rfl)))

/-- The lane sum over the 64 columns of a block, at row r. -/
theorem lane_sum_w (src : FVec Ideal S8192x64 .f32) (r : Fin 8192) :
    multiReduction (F := Ideal) .add [1] S8192 src 0x00000000#32 reduces_S8192x64_S8192 (.inl rfl) rfl (ix1 r)
      = ∑ k : Fin 64, src (ix2 r k) :=
  (Ideal.multiReduction_add_single src 0x00000000#32 reduces_S8192x64_S8192 (.inl rfl) rfl (ix1 r)).trans
    (Finset.sum_congr rfl fun k _ => congrArg src (funext fun a => Fin.ext (by
      match a with | ⟨0, _⟩ => rfl | ⟨1, _⟩ => rfl)))

/-- The sum of a column of 8192 entries. -/
theorem col_sum (src : FVec Ideal S8192x1 .f32) :
    multiReduction (F := Ideal) .add [0] S1 src 0x00000000#32 reduces_S8192x1_S1 (.inl rfl) rfl (ix1 (0 : Fin 1))
      = ∑ r : Fin 8192, src (ix2 r (0 : Fin 1)) :=
  (Ideal.multiReduction_add_single src 0x00000000#32 reduces_S8192x1_S1 (.inl rfl) rfl (ix1 (0 : Fin 1))).trans
    (Finset.sum_congr rfl fun r _ => congrArg src (funext fun a => Fin.ext (by
      match a with | ⟨0, _⟩ => rfl | ⟨1, _⟩ => rfl)))

theorem lhs_0 (i : S8192x64.Idx) (q : dot_S8192x128_S64x128_S8192x64_1_1_0_0_n_n.contr.Idx) : (dot_S8192x128_S64x128_S8192x64_1_1_0_0_n_n.lhsIdx i q 0).val = (i 0).val := by
  unfold DotDims.lhsIdx
  rw [dif_neg (show ¬(0 : Fin S8192x128.rank) ∈ dot_S8192x128_S64x128_S8192x64_1_1_0_0_n_n.lhsBatch by decide), dif_pos (show (0 : Fin S8192x128.rank) ∈ dot_S8192x128_S64x128_S8192x64_1_1_0_0_n_n.lhsNonContracting by decide)]
  rfl
theorem lhs_1 (i : S8192x64.Idx) (q : dot_S8192x128_S64x128_S8192x64_1_1_0_0_n_n.contr.Idx) : (dot_S8192x128_S64x128_S8192x64_1_1_0_0_n_n.lhsIdx i q 1).val = (q ⟨0, by decide⟩).val :=
  dot_S8192x128_S64x128_S8192x64_1_1_0_0_n_n.lhsIdx_val_of_single rfl i q
theorem rhs_0 (i : S8192x64.Idx) (q : dot_S8192x128_S64x128_S8192x64_1_1_0_0_n_n.contr.Idx) : (dot_S8192x128_S64x128_S8192x64_1_1_0_0_n_n.rhsIdx i q 0).val = (i 1).val := by
  unfold DotDims.rhsIdx
  rw [dif_neg (show ¬(0 : Fin S64x128.rank) ∈ dot_S8192x128_S64x128_S8192x64_1_1_0_0_n_n.rhsBatch by decide), dif_pos (show (0 : Fin S64x128.rank) ∈ dot_S8192x128_S64x128_S8192x64_1_1_0_0_n_n.rhsNonContracting by decide)]
  rfl
theorem rhs_1 (i : S8192x64.Idx) (q : dot_S8192x128_S64x128_S8192x64_1_1_0_0_n_n.contr.Idx) : (dot_S8192x128_S64x128_S8192x64_1_1_0_0_n_n.rhsIdx i q 1).val = (q ⟨0, by decide⟩).val :=
  dot_S8192x128_S64x128_S8192x64_1_1_0_0_n_n.rhsIdx_val_of_single rfl i q

/-- The matrix unit's product of a block with the centres, both contracted over their 128 columns, into a zero
    accumulator: at (r, k) the inner product of row r with centre k. -/
theorem matmul_rows_apply {φ₁ φ₂ : FTy} (a : FVec Ideal S8192x128 φ₁) (b : FVec Ideal S64x128 φ₂) (r : Fin 8192) (k : Fin 64) :
    matmul (F := Ideal) dot_S8192x128_S64x128_S8192x64_1_1_0_0_n_n none a b (constant (F := Ideal) S8192x64 .f32 0x00000000#32) (ix2 r k)
      = ∑ d : Fin 128, a (ix2 r d) * b (ix2 k d) := by
  simp only [matmul]
  rw [Ideal.matmul_constant_zero_apply, ← Equiv.sum_comp (contrEquiv1 dot_S8192x128_S64x128_S8192x64_1_1_0_0_n_n 128 rfl rfl).symm]
  refine Finset.sum_congr rfl fun d _ => ?_
  have hk := contrEquiv1_symm_val dot_S8192x128_S64x128_S8192x64_1_1_0_0_n_n 128 rfl rfl d
  have el : dot_S8192x128_S64x128_S8192x64_1_1_0_0_n_n.lhsIdx (ix2 r k) ((contrEquiv1 dot_S8192x128_S64x128_S8192x64_1_1_0_0_n_n 128 rfl rfl).symm d) = ix2 r d := funext fun ax => Fin.ext (by
    match ax with
    | ⟨0, _⟩ => exact lhs_0 _ _
    | ⟨1, _⟩ => exact (lhs_1 _ _).trans hk)
  have er : dot_S8192x128_S64x128_S8192x64_1_1_0_0_n_n.rhsIdx (ix2 r k) ((contrEquiv1 dot_S8192x128_S64x128_S8192x64_1_1_0_0_n_n 128 rfl rfl).symm d) = ix2 k d := funext fun ax => Fin.ext (by
    match ax with
    | ⟨0, _⟩ => exact rhs_0 _ _
    | ⟨1, _⟩ => exact (rhs_1 _ _).trans hk)
  rw [el, er]

/-- The accumulating store's value at its entry: the accumulator read plus the block's sum of terms. -/
theorem pay2_apply (x0 : Vec Ideal S8192x128 .f32) (x1 : Vec Ideal S8192x64 .f32) (x2 : Vec Ideal S64x128 .f32)
    (x3 : Vec Ideal S1x64 .f32) (acc : Vec Ideal S1x1 .f32) (j : S1x1.Idx) :
    k0_pay2 (F := Ideal) x0 x1 x2 x3 acc j = acc j + blockSum x0 x1 x2 x3 := by
  obtain rfl := idx11 j
  unfold k0_pay2
  rw [shapeCast_self, addf_apply]
  refine congrArg (acc (ix2 (0 : Fin 1) (0 : Fin 1)) + ·) ?_
  rw [Cert.Layout.cast_vec_col_apply (n := 1), col_sum]
  unfold blockSum
  refine Finset.sum_congr rfl fun r _ => ?_
  rw [Cert.Layout.cast_vec_col_apply (n := 8192), lane_sum_w]
  refine Finset.sum_congr rfl fun k _ => ?_
  rw [mulf_apply, mulf_apply, subf_apply, addf_apply, mulf_apply, broadcast_apply, bcast_col_apply,
    Cert.Layout.cast_vec_col_apply (n := 8192), lane_sum_x, broadcastTo_1b_ab_apply, shapeCast_self, matmul_rows_apply]
  rfl

/-- The first point's store: the word of zero, which denotes 0. -/
theorem pay1_apply (j : S1x1.Idx) : k0_pay1 (F := Ideal) j = 0 := by
  unfold k0_pay1
  rw [shapeCast_self]
  exact Ideal.ofBits_zero_f32

/-- The last point's output: the accumulator times γ. -/
theorem pay3_apply (acc : Vec Ideal S1x1 .f32) (j : S1x1.Idx) : k0_pay3 (F := Ideal) acc j = acc j * gam := rfl

end Cert.KernelIdeal.Pay

end
-- ==== Proof.Accum.lean ====
/-
  The accumulator after each grid point is the running total of the blocks' sums.

  The first point stores zero plus its block's sum, every later point what the point before left plus its own, so after
  point n the accumulator holds the total over the blocks 0 … n; the output written at the last point is the total over
  all blocks times γ.
-/
import proofs.«152521_j18494129176961_1_alg».proof.Proof.Pieces
import proofs.«152521_j18494129176961_1_alg».proof.Proof.Payload

set_option maxRecDepth 16384

noncomputable section

namespace Cert.KernelIdeal.Accum

open Cert.KernelIdeal Cert.KernelIdeal.Gen Cert.Fcm Idealize.ShloMosaic Idealize.ShloMosaic.TcCoe Idealize.SL.Sem
open Idealize.ShloMosaic.ValueIdx

variable (m : (ℓ : Loc nD τ sig) → Buf (Elt Ideal) ℓ)

/-- The sum of the terms of the block the windows hold at point `t`. -/
def bsAt (c : Dev nD) (t : Fin cfg0.N) : EReal :=
  blockSum (iblk m c 0 t : Vec Ideal S8192x128 .f32) (iblk m c 1 t : Vec Ideal S8192x64 .f32)
    (iblk m c 2 t : Vec Ideal S64x128 .f32) (iblk m c 3 t : Vec Ideal S1x64 .f32)

/-- After point `n` the accumulator holds the running total of the block sums. -/
theorem acc_eq (c : Dev nD) : ∀ (n : ℕ) (h : n < cfg0.N), (outsAt0 m c n h).2 = fun _ => running (bsAt m c) n h
  | 0, h => by
    have h1 : ¬(⟨0, h⟩ : Fin cfg0.N).val % 32 = 31 := by dsimp only; omega
    refine (congrArg Prod.snd (outsAt0_A m c ⟨0, h⟩ (Nat.zero_mod 32) h1)).trans ?_
    dsimp only
    refine (Pieces.scratch_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr (Nat.zero_mod 32)) (fun hh => h1 ((hcond0_1 ⟨0, h⟩).mp hh)) (iblk m c 0 ⟨0, h⟩) (iblk m c 1 ⟨0, h⟩) (iblk m c 2 ⟨0, h⟩) (iblk m c 3 ⟨0, h⟩)).trans ?_
    funext j
    refine (Pay.pay2_apply _ _ _ _ _ j).trans ?_
    rw [Pay.pay1_apply, zero_add]
    rfl
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · refine (congrArg Prod.snd (outsAt0_C m c ⟨n + 1, h⟩ h0 h1)).trans ?_
      dsimp only
      refine (Pieces.scratch_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (outsAt0 m c n (Nat.lt_of_succ_lt h)).2).trans ?_
      funext j
      refine (Pay.pay2_apply _ _ _ _ _ j).trans ?_
      rw [acc_eq c n]
      rfl
    · refine (congrArg Prod.snd (outsAt0_B m c ⟨n + 1, h⟩ h0 h1)).trans ?_
      dsimp only
      refine (Pieces.scratch_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (outsAt0 m c n (Nat.lt_of_succ_lt h)).2).trans ?_
      funext j
      refine (Pay.pay2_apply _ _ _ _ _ j).trans ?_
      rw [acc_eq c n]
      rfl

/-- The last point writes to the output the total over all blocks, times γ. -/
theorem out_last (c : Dev nD) (t : Fin cfg0.N) (h31 : t.val % 32 = 31) :
    (outsAt0 m c t.val t.isLt).1 = fun _ => (∑ s : Fin cfg0.N, bsAt m c s) * gam := by
  have hN : cfg0.N = 32 := N_0
  have h0 : ¬t.val % 32 = 0 := by omega
  refine (congrArg Prod.fst (outsAt0_C m c t h0 h31)).trans ?_
  dsimp only
  refine (Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h31) (iblk m c 0 t) (iblk m c 1 t) (iblk m c 2 t) (iblk m c 3 t) (outsAt0 m c (t.val - 1) (Nat.lt_of_le_of_lt (Nat.sub_le _ _) t.isLt)).2).trans ?_
  funext j
  refine (Pay.pay3_apply _ j).trans ?_
  refine congrArg (· * gam) ?_
  refine (Pay.pay2_apply _ _ _ _ _ j).trans ?_
  obtain ⟨tv, ht⟩ := t
  have h31' : tv = 31 := by dsimp only at h31; omega
  subst h31'
  show (outsAt0 m c 30 _).2 j + bsAt m c ⟨31, ht⟩ = _
  rw [acc_eq m c 30]
  exact running_last (bsAt m c) 31 ht (by rw [hN])

end Cert.KernelIdeal.Accum

end
-- ==== Proof.Blocks.lean ====
/-
  The blocks the windows hold, read off the whole arrays.

  At grid point t the first two windows hold rows 8192·t … 8192·t + 8191 of x and of u; the third holds all of v; the
  fourth holds the one-row matrix the program computed beforehand, whose entry k is the squared length of centre k (a host
  sum over the centre's 128 entries started from the zero word, spread to a column and turned into a row). So the block's
  sum of terms is the sum of the whole arrays' terms over the block's rows.
-/
import proofs.«152521_j18494129176961_1_alg».proof.Proof.Accum
import proofs.«152521_j18494129176961_1_alg».proof.Proof.LibColumn
import Idealize.ShloMosaic.Lib.ValueLayout
import Idealize.ShloMosaic.Lib.StableHlo.Run

set_option maxRecDepth 16384

noncomputable section

namespace Cert.KernelIdeal.Blocks

open Cert.KernelIdeal Cert.KernelIdeal.Gen Cert.KernelIdeal.Accum Cert.Fcm Idealize.ShloMosaic Idealize.ShloMosaic.TcCoe Idealize.SL.Sem
open Idealize.ShloMosaic.ValueIdx

variable (m : (ℓ : Loc nD τ sig) → Buf (Elt Ideal) ℓ)

/-- Where each window's block sits at point t, as multiples of the block's extents. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Row r of the block of x at point t is row 8192·t + r of x. -/
theorem blk_x (c : Dev nD) (t : Fin cfg0.N) (r : Fin 8192) (d : Fin 128) (hr : t.val * 8192 + r.val < 262144) :
    (iblk m c 0 t : Vec Ideal S8192x128 .f32) (ix2 r d)
      = (m ((c : Thread nD τ).loc main_arg0) : Mat 262144 128) (ix2 ⟨t.val * 8192 + r.val, hr⟩ d) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 8192 + 1 * r.val = t.val * 8192 + r.val; rw [(idx0 t).1]; omega
  | ⟨1, _⟩ => show win0_0.index t 1 * 128 + 1 * d.val = d.val; rw [(idx0 t).2]; omega

/-- Row r of the block of u at point t is row 8192·t + r of u. -/
theorem blk_u (c : Dev nD) (t : Fin cfg0.N) (r : Fin 8192) (k : Fin 64) (hr : t.val * 8192 + r.val < 262144) :
    (iblk m c 1 t : Vec Ideal S8192x64 .f32) (ix2 r k)
      = (m ((c : Thread nD τ).loc main_arg1) : Mat 262144 64) (ix2 ⟨t.val * 8192 + r.val, hr⟩ k) := by
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 8192 + 1 * r.val = t.val * 8192 + r.val; rw [(idx1 t).1]; omega
  | ⟨1, _⟩ => show win0_1.index t 1 * 64 + 1 * k.val = k.val; rw [(idx1 t).2]; omega

/-- The block of v is v. -/
theorem blk_v (c : Dev nD) (t : Fin cfg0.N) (k : Fin 64) (d : Fin 128) :
    (iblk m c 2 t : Vec Ideal S64x128 .f32) (ix2 k d) = (m ((c : Thread nD τ).loc main_arg2) : Mat 64 128) (ix2 k d) := by
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 64 + 1 * k.val = k.val; rw [(idx2 t).1]; omega
  | ⟨1, _⟩ => show win0_2.index t 1 * 128 + 1 * d.val = d.val; rw [(idx2 t).2]; omega

/-- What the program computed before the region into the fourth window's array: the centres' squared lengths as a row. -/
theorem V_v3 (c : Dev nD) :
    (V m c main_v3 : S1x64.Idx → EReal)
      = transpose S1x64 [1, 0] (broadcastInDim S64x1 ![0] bcast_S64_S64x1_0
          (Host.reduceAdd (F := Ideal) (mulf (m ((c : Thread nD τ).loc main_arg2)) (m ((c : Thread nD τ).loc main_arg2)))
            (constant (F := Ideal) S_ .f32 0x00000000#32) reducesTo_S64x128_S64_d1 h_S_)) transposes_S64x1_S1x64_1_0 := by
  show StableHlo.after hostOps0 (fun b => m (c, b)) (Proc.devRef .tc main_v3) = _
  after_results

/-- Entry k of that row is the squared length of centre k. -/
theorem blk_v2 (c : Dev nD) (t : Fin cfg0.N) (k : Fin 64) :
    (iblk m c 3 t : Vec Ideal S1x64 .f32) (ix2 (0 : Fin 1) k) = sqRow (m ((c : Thread nD τ).loc main_arg2) : Mat 64 128) k := by
  unfold iblk
  rw [View.read_apply]
  have e : (((cfg0.win 3).blk t).view.emb (ix2 (0 : Fin 1) k) : S1x64.Idx) = ix2 (0 : Fin 1) k := funext fun a => Fin.ext (by
    match a with
    | ⟨0, _⟩ => show win0_3.index t 0 * 1 + 1 * 0 = 0; rw [(idx3 t).1]
    | ⟨1, _⟩ => show win0_3.index t 1 * 64 + 1 * k.val = k.val; rw [(idx3 t).2]; omega)
  show V m c main_v3 _ = _
  rw [e, V_v3, transpose_ix2_apply, Cert.Layout.bcast_vec_col_apply]
  have hR : S64x128.Reduces [1] S64 := by decide
  simp only [Host.reduceAdd, Ideal.hostReduceAdd_def]
  rw [Ideal.hostReduceAdd_single reducesTo_S64x128_S64_d1 hR]
  show Ideal.ofBits .f32 0x00000000#32 + (∑ d : Fin 128, _) = _
  rw [Ideal.ofBits_zero_f32, zero_add]
  unfold sqRow
  refine Finset.sum_congr rfl fun d _ => ?_
  have e' : hR.lift (ix1 k) d = ix2 k d := funext fun a => Fin.ext (by match a with | ⟨0, _⟩ => rfl | ⟨1, _⟩ => rfl)
  rw [e']
  rfl

/-- The block's sum of terms is the sum of the whole arrays' terms over the block's rows. -/
theorem bsAt_eq (c : Dev nD) (t : Fin cfg0.N) (ht : t.val < 32) :
    bsAt m c t = ∑ r : Fin 8192, ∑ k : Fin 64,
      termMul (m ((c : Thread nD τ).loc main_arg0)) (m ((c : Thread nD τ).loc main_arg1)) (m ((c : Thread nD τ).loc main_arg2))
        (rowOf ⟨t.val, ht⟩ r) k := by
  unfold bsAt blockSum
  refine Finset.sum_congr rfl fun r _ => Finset.sum_congr rfl fun k _ => ?_
  have hr : t.val * 8192 + r.val < 262144 := by have := r.isLt; omega
  unfold termMul
  have e1 : sqRow (iblk m c 0 t : Vec Ideal S8192x128 .f32) r = sqRow (m ((c : Thread nD τ).loc main_arg0) : Mat 262144 128) (rowOf ⟨t.val, ht⟩ r) :=
    Finset.sum_congr rfl fun d _ => by rw [blk_x m c t r d hr]
  have e2 : dotRow (iblk m c 0 t : Vec Ideal S8192x128 .f32) (iblk m c 2 t : Vec Ideal S64x128 .f32) r k
      = dotRow (m ((c : Thread nD τ).loc main_arg0) : Mat 262144 128) (m ((c : Thread nD τ).loc main_arg2) : Mat 64 128) (rowOf ⟨t.val, ht⟩ r) k :=
    Finset.sum_congr rfl fun d _ => by rw [blk_x m c t r d hr, blk_v m c t k d]
  rw [e1, e2, blk_u m c t r k hr, blk_v2 m c t k]

end Cert.KernelIdeal.Blocks

end
-- ==== Proof.KernelRun.lean ====
/-
  The idealized kernel's run, read: its result is the loss summed block by block.

  Only the last grid point writes the 1×1 output back, and what it writes is the total of all the blocks' sums times γ; that
  one block is the whole output array. The program then recasts the 1×1 array as a scalar, which keeps its one entry.
-/
import proofs.«152521_j18494129176961_1_alg».proof.Proof.Blocks
import Idealize.ShloMosaic.Lib.Pipeline.Value
import Idealize.ShloMosaic.Lib.StableHlo.Run

set_option maxRecDepth 16384

noncomputable section

namespace Cert.KernelIdeal.Whole

open Cert.KernelIdeal Cert.KernelIdeal.Gen Cert.KernelIdeal.Accum Cert.KernelIdeal.Blocks Cert.Fcm
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The loss of the three arrays as core `c` holds them at launch, summed block by block. -/
abbrev lossOf (c : Dev nD) : EReal :=
  lossBlocks (m ((c : Thread nD τ).loc main_arg0)) (m ((c : Thread nD τ).loc main_arg1)) (m ((c : Thread nD τ).loc main_arg2))

/-- The total of the grid points' block sums, scaled, is that loss. -/
theorem total_eq (c : Dev nD) : (∑ s : Fin cfg0.N, bsAt m c s) * gam = lossOf m c := by
  have hN : cfg0.N = 32 := N_0
  unfold lossOf lossBlocks
  refine congrArg (· * gam) ?_
  exact Fintype.sum_equiv (finCongr hN) _ _ (fun s => bsAt_eq m c s (by have := s.isLt; omega))

/-- The output array the region leaves: its one entry the loss. -/
abbrev res (c : Dev nD) : Buf (Elt Ideal) ((c : Thread nD τ).loc main_v4) := fun _ => lossOf m c

/-- The last grid point. -/
abbrev t31 : Fin cfg0.N := ⟨31, by decide⟩

/-- The one write-back, at the last point, writes the loss: block (0, 0) of the 1×1 array is the array. -/
theorem flushed_eq (c : Dev nD) (t : Fin cfg0.N) (hf : (cfg0.win 4).flush t = true) :
    (dats m 0 c).flushed 4 t = ((cfg0.win 4).blk t).view.read (Elt Ideal) (res m c) := by
  have hN : cfg0.N = 32 := N_0
  have h31 : t.val % 32 = 31 := (flush0_4 t).mp hf
  have h3 : t.val = 31 := by have := t.isLt; omega
  obtain rfl : t = t31 := Fin.ext h3
  show (cfg0.win 4).cut (grid0.coords t31) ((dats m 0 c).after 4 t31) = _
  rw [after0_4, out_last m c t31 h31, total_eq]
  have hz' : (fun a => win0_4.index t31 a * main_v4.ty.shape.size a) = fun _ => 0 := funext fun a => by fin_cases a <;> decide
  exact (Memref.read_access_unit_zero (Elt Ideal) main_v4 hz' (fun a => by rw [congrFun hz' a]; simp) (res m c)).symm

/-- So the output array ends holding the loss. -/
theorem final (c : Dev nD) : (dats m 0 c).arrAt 4 cfg0.N = res m c :=
  (dats m 0 c).arrAt_eq_of_cover 4 (res m c) (flushed_eq m c) fun i =>
    ⟨t31, (flush0_4 t31).mpr rfl, by
      show i ∈ ((View.whole main_v4).slice (win0_4.rect t31)).set
      rw [View.set_slice_whole, Rect.mem_set_unit]
      intro a
      have h0 : (i 0 : Nat) < 1 := (i 0).isLt
      have h1 : (i 1 : Nat) < 1 := (i 1).isLt
      match a with
      | ⟨0, _⟩ => show win0_4.index t31 0 * win0_4.size 0 ≤ (i 0 : Nat) ∧ (i 0 : Nat) < win0_4.index t31 0 * win0_4.size 0 + win0_4.xsize (grid0.coords t31) 0
                  rw [show win0_4.index t31 0 * win0_4.size 0 = 0 from by decide +kernel, show win0_4.xsize (grid0.coords t31) 0 = 1 from by decide +kernel]; omega
      | ⟨1, _⟩ => show win0_4.index t31 1 * win0_4.size 1 ≤ (i 1 : Nat) ∧ (i 1 : Nat) < win0_4.index t31 1 * win0_4.size 1 + win0_4.xsize (grid0.coords t31) 1
                  rw [show win0_4.index t31 1 * win0_4.size 1 = 0 from by decide +kernel, show win0_4.xsize (grid0.coords t31) 1 = 1 from by decide +kernel]; omega⟩

/-- The scalar the program returns: the 1×1 array recast, its one entry the loss. -/
theorem tail_eq (c : Dev nD) :
    Pipeline.afterTail₀ cfgs (dats m) 0 (V0 m) [hostOps1] c main_v5 = fun _ => lossOf m c := by
  unfold Pipeline.afterTail₀
  show StableHlo.after hostOps1 _ (Proc.devRef .tc main_v5) = _
  after_results
  rw [(Pipeline.withArrays_arr spec0 launch0.win.arr_inj c _ _ 4).trans (final m c)]
  rfl

/-- The run, read: the result at the loss, the arguments unchanged. -/
theorem run : θ_run defs (onTc (τ := τ) (main (F := Ideal))) ⟨m, fun _ => 0, ρ⟩ fun r => ∀ c : Dev nD,
      r.2.mem ((c : Thread nD τ).loc main_v5) = (fun _ => lossOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).2 main_v5 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Whole

end
-- ==== Proof.RefSide.lean ====
/-
  The reference's result is the loss summed over all entries at once.

  Read one operation at a time, the reference's entry (n, k) of the table it sums is the power u[n,k]² times
  (|xₙ|² + |vₖ|²) − 2·(xₙ·vₖ): the squared lengths are host sums over the 128 columns started from the word of zero, which
  adds nothing; the inner product is the host's general dot product of x with the transposed centres, whose entry (d, k)
  is v[k, d]. The result is γ times the sum of the table, again started from zero.
-/
import proofs.«152521_j18494129176961_1_alg».proof.Proof.Gen.ReferenceIdeal.Run
import proofs.«152521_j18494129176961_1_alg».proof.Proof.Gen.ReferenceIdeal.Read
import proofs.«152521_j18494129176961_1_alg».proof.Proof.Spec

noncomputable section

namespace Cert.ReferenceIdeal.RefValue

open Cert.ReferenceIdeal Cert.ReferenceIdeal.Read Cert.Fcm Idealize.ShloMosaic Idealize.ShloMosaic.ValueIdx

/-- The entries of x the squared length of row n sums: (n, d). -/
theorem idx_sqx (n : Fin 262144) (k : Fin 64) (d : Fin 128) :
    idx_main_v1 (idx_main_v2 (idx_main_v6 (ix2 n k))) d = ix2 n d :=
  funext fun a => Fin.ext (by match a with | ⟨0, _⟩ => rfl | ⟨1, _⟩ => rfl)

/-- The entries of v the squared length of centre k sums: (k, d). -/
theorem idx_sqv (n : Fin 262144) (k : Fin 64) (d : Fin 128) :
    idx_main_v4 (idx_main_v5 (idx_main_v7 (ix2 n k))) d = ix2 k d :=
  funext fun a => Fin.ext (by match a with | ⟨0, _⟩ => rfl | ⟨1, _⟩ => rfl)

/-- The left factor of the inner product at (n, k): x at (n, d). -/
theorem idx_dotx (n : Fin 262144) (k : Fin 64) (d : Fin 128) : lidx_main_v10 (ix2 n k) d = ix2 n d :=
  funext fun a => Fin.ext (by match a with | ⟨0, _⟩ => rfl | ⟨1, _⟩ => rfl)

/-- The right factor of the inner product at (n, k): the transposed centres at (d, k), that is v at (k, d). -/
theorem idx_dotv (n : Fin 262144) (k : Fin 64) (d : Fin 128) : idx_main_v9 (ridx_main_v10 (ix2 n k) d) = ix2 k d :=
  funext fun a => Fin.ext (by match a with | ⟨0, _⟩ => rfl | ⟨1, _⟩ => rfl)

/-- Entry (n, k) of the table the reference sums is the term with the membership squared by the power. -/
theorem entry (x : Mat 262144 128) (u : Mat 262144 64) (v : Mat 64 128) (n : Fin 262144) (k : Fin 64) :
    val_main_v16 (F := Ideal) x u v (ix2 n k) = termPow x u v n k := by
  simp only [val_main_v16_apply, val_main_v15_apply, val_main_v14_apply, val_main_cst_2_apply, val_main_v13_apply,
    val_main_v8_apply, val_main_v6_apply, val_main_v2_apply, val_main_v1_apply, val_main_cst_apply, val_main_v0_apply,
    val_main_v7_apply, val_main_v5_apply, val_main_v4_apply, val_main_cst_0_apply, val_main_v3_apply, val_main_v12_apply,
    val_main_v11_apply, val_main_cst_1_apply, val_main_v10_apply, val_main_v9_apply, idx_sqx, idx_sqv, idx_dotx, idx_dotv,
    Ideal.mulf_def, Ideal.addf_def, Ideal.subf_def, Ideal.hostPowf_def, Ideal.ofBits_def, Ideal.ofBits_zero_f32, zero_add]
  rfl

/-- The reference's result, as a function of the three arrays, is the loss summed over all entries. -/
theorem result_eq (x : Mat 262144 128) (u : Mat 262144 64) (v : Mat 64 128) :
    val_main_v18 (F := Ideal) x u v = fun _ => lossAll x u v := by
  funext i
  rw [val_main_v18_apply, val_main_v17_apply]
  unfold lossAll
  show gam * (Ideal.ofBits .f32 0x00000000#32 + ∑ j : S262144x64.Idx, val_main_v16 (F := Ideal) x u v j) = _
  rw [Ideal.ofBits_zero_f32, zero_add]
  refine congrArg (gam * ·) (Finset.sum_congr rfl fun j _ => ?_)
  rw [eq_ix2 j]
  exact entry x u v (j 0) (j 1)

end Cert.ReferenceIdeal.RefValue

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibMatAssoc.lean ====
/-
  Matrices of real entries on the extended reals.

  A row of a matrix product depends on the left factor through that one row only. The product of three matrices
  whose entries are all real (neither infinity) is associative: on the extended reals that takes distributivity of
  the product over a finite sum, which fails at the infinities, so the sums are computed in the reals and carried
  back through the embedding, which commutes with finite sums and with products.
-/
import proofs.«152521_j18494129176961_1_alg».proof.Proof.LibDense

noncomputable section

open scoped BigOperators

namespace Cert.Gcn

open Cert.Dense Idealize.ShloMosaic Idealize.ShloMosaic.ValueIdx

variable {M K L N : ℕ}

/-- Every entry is a real number (neither infinity). -/
def Finite {s : Shape} (X : s.Idx → EReal) : Prop := ∀ i, ∃ r : ℝ, X i = (r : EReal)

/-- The embedding of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Row `p` of `blk · W` is row `r` of `A · W` when row `p` of `blk` is row `r` of `A`. -/
theorem mm_row {M' : ℕ} (A : Mat M' K) (blk : Mat M K) (W : Mat K N) (p : Fin M) (r : Fin M')
    (h : ∀ k, blk (ix2 p k) = A (ix2 r k)) (q : Fin N) : mm blk W (ix2 p q) = mm A W (ix2 r q) := by
  show ∑ k : Fin K, blk (ix2 p k) * W (ix2 k q) = ∑ k : Fin K, A (ix2 r k) * W (ix2 k q)
  exact Finset.sum_congr rfl fun k _ => by rw [h k]

/-- Associativity of a triple product of real numbers summed over two finite axes. -/
theorem real_assoc (a : Fin K → ℝ) (x : Fin K → Fin L → ℝ) (w : Fin L → ℝ) :
    ∑ l : Fin L, (∑ k : Fin K, a k * x k l) * w l = ∑ k : Fin K, a k * ∑ l : Fin L, x k l * w l := by
  simp_rw [Finset.sum_mul, Finset.mul_sum]
  rw [Finset.sum_comm]
  exact Finset.sum_congr rfl fun k _ => Finset.sum_congr rfl fun l _ => by ring

/-- The product of three matrices of real entries is associative on the extended reals. -/
theorem mm_assoc (A : Mat M K) (X : Mat K L) (W : Mat L N) (hA : Finite A) (hX : Finite X) (hW : Finite W) :
    mm (mm A X) W = mm A (mm X W) := by
  funext i
  obtain ⟨p, q, rfl⟩ : ∃ (p : Fin M) (q : Fin N), i = ix2 p q := ⟨i 0, i 1, eq_ix2 i⟩
  choose a ha using hA
  choose x hx using hX
  choose w hw using hW
  have hl : mm (mm A X) W (ix2 p q)
      = ((∑ l : Fin L, (∑ k : Fin K, a (ix2 p k) * x (ix2 k l)) * w (ix2 l q) : ℝ) : EReal) := by
    show ∑ l : Fin L, (∑ k : Fin K, A (ix2 p k) * X (ix2 k l)) * W (ix2 l q) = _
    rw [coe_sum]
    refine Finset.sum_congr rfl fun l _ => ?_
    rw [EReal.coe_mul, coe_sum, hw]
    refine congrArg (· * (w (ix2 l q) : EReal)) (Finset.sum_congr rfl fun k _ => ?_)
    rw [EReal.coe_mul, ha, hx]
  have hr : mm A (mm X W) (ix2 p q)
      = ((∑ k : Fin K, a (ix2 p k) * ∑ l : Fin L, x (ix2 k l) * w (ix2 l q) : ℝ) : EReal) := by
    show ∑ k : Fin K, A (ix2 p k) * (∑ l : Fin L, X (ix2 k l) * W (ix2 l q)) = _
    rw [coe_sum]
    refine Finset.sum_congr rfl fun k _ => ?_
    rw [EReal.coe_mul, coe_sum, ha]
    refine congrArg ((a (ix2 p k) : EReal) * ·) (Finset.sum_congr rfl fun l _ => ?_)
    rw [EReal.coe_mul, hx, hw]
  rw [hl, hr]
  exact congrArg _ (real_assoc (fun k => a (ix2 p k)) (fun k l => x (ix2 k l)) (fun l => w (ix2 l q)))

end Cert.Gcn

end
-- ==== Proof.LibFinite.lean ====
/-
  "Every entry is finite", decoded.

  A precondition states it of an array as the conjunction over the array of the test |x| < +∞, the bound being the
  f32 word of +∞. An extended real whose absolute value is below +∞ is neither infinity, so it is a real; and a
  conjunction over an array that holds is every one of its terms.
-/
import proofs.«152521_j18494129176961_1_alg».proof.Proof.LibMatAssoc
import Idealize.ShloMosaic.Lib.ReduceAll
import Idealize.ShloMosaic.Lib.Affine

noncomputable section

namespace Cert.Gcn

open Idealize.ShloMosaic Idealize.ShloMosaic.ValueIdx

/-- An extended real with |x| < +∞ (the test the precondition makes, against the f32 word of +∞) is a real. -/
theorem real_of_abs_lt_inf (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

instance : Subsingleton (⟨0, ![]⟩ : Shape).Idx := ⟨fun a b => funext fun d => d.elim0⟩

/-- One input's conjunct: the test holds at every index, so every entry is real. -/
theorem finite_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant (F := Ideal) ⟨0, ![]⟩ .f32 0x7F800000#32)))
          (constantI ⟨0, ![]⟩ 1 1#1) hr hu ix0 = 1#1) : Finite x := by
  intro i
  have hi := Host.reduce_andi_all _ _ hr hu ix0 e i
  have hi' : Ideal.cmp .olt (max (x i) (-(x i)))
      (broadcastInDim s ![] hb (constant (F := Ideal) ⟨0, ![]⟩ .f32 0x7F800000#32) i) = 1#1 := hi
  rw [broadcastInDim_apply ![] hb _ i ix0 (fun ax => ax.elim0)] at hi'
  exact real_of_abs_lt_inf (x i) hi'

end Cert.Gcn

end
-- ==== Proof.Inputs.lean ====
/-
  Under the precondition every membership is a real.

  The precondition is the conjunction of three tests, one per input: that |entry| < +∞ holds at every entry. The middle one
  is about the memberships u; an extended real whose absolute value is below +∞ is neither infinity.
-/
import proofs.«152521_j18494129176961_1_alg».proof.Defs
import proofs.«152521_j18494129176961_1_alg».proof.Proof.Gen.Pre_finite_inputs
import proofs.«152521_j18494129176961_1_alg».proof.Proof.LibFinite

noncomputable section

namespace Cert.Proof.Inputs

open Idealize.ShloMosaic Idealize.ShloMosaic.ValueIdx Idealize.SL.Sem

/-- Every entry of u is a real number when the precondition holds. -/
theorem u_real (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Gcn.Finite (s := Cert.KernelIdeal.S262144x64)
      (m ((c.tc : Thread Cert.KernelIdeal.nD Cert.KernelIdeal.τ).loc Cert.KernelIdeal.main_arg1)) := by
  have h := congrFun (hpre c) ix0
  dsimp only [Cert.Pre_finite_inputs.fn] at h
  obtain ⟨h12, _⟩ := IntOp.andi_eq_one.1 h
  obtain ⟨_, h2⟩ := IntOp.andi_eq_one.1 h12
  exact Cert.Gcn.finite_of_all _ _ _ _ h2

end Cert.Proof.Inputs

end
-- ==== Proof.lean ====
/-
  A fuzzy c-means loss computed two ways is one number on the extended reals.

  For points x (262144 rows of 128 entries), centres v (64 rows of 128) and memberships u (262144 × 64) the loss is
  γ · Σₙ Σₖ u[n,k]² · ((|xₙ|² + |vₖ|²) − 2·(xₙ·vₖ)). The kernel walks 32 blocks of 8192 rows: for each block it forms the
  terms with the membership squared by a product, sums them, and adds the block's sum to a 1×1 accumulator that starts at zero;
  after the last block it scales the accumulator by γ, and the program recasts the 1×1 result as a scalar. The reference forms
  the whole 262144 × 64 table with the membership squared by a power of exponent 2, sums it once, and scales by γ on the left.

  The two agree for these reasons. Sums of extended reals can be regrouped in any way, so the sum of the table is the sum
  over the blocks of the blocks' sums; sums started from the zero word are the bare sums; the product of extended reals
  commutes, so γ may stand on either side; narrowing a float format is the identity here, so the matrix unit's product of a
  block with the centres is the inner products exactly; and u·u is the power u² for every real u. The last needs the
  precondition: at u = −∞ the power is −∞ while the product is +∞, and the precondition says every input entry is finite.

  The three frame claims are the generated frame runs (for the reference, its generated run with the result dropped), and
  the idealization changed no operation, so nothing is owed for it.
-/
import proofs.«152521_j18494129176961_1_alg».proof.Defs
import proofs.«152521_j18494129176961_1_alg».proof.Proof.Gen.Kernel
import proofs.«152521_j18494129176961_1_alg».proof.Proof.Gen.Kernel.Skeleton
import proofs.«152521_j18494129176961_1_alg».proof.Proof.Gen.Kernel.Launch
import proofs.«152521_j18494129176961_1_alg».proof.Proof.Gen.Kernel.Points
import proofs.«152521_j18494129176961_1_alg».proof.Proof.Gen.Kernel.Frame
import proofs.«152521_j18494129176961_1_alg».proof.Proof.Gen.KernelIdeal
import proofs.«152521_j18494129176961_1_alg».proof.Proof.Gen.KernelIdeal.Skeleton
import proofs.«152521_j18494129176961_1_alg».proof.Proof.Gen.KernelIdeal.Launch
import proofs.«152521_j18494129176961_1_alg».proof.Proof.Gen.KernelIdeal.Points
import proofs.«152521_j18494129176961_1_alg».proof.Proof.Gen.KernelIdeal.Frame
import proofs.«152521_j18494129176961_1_alg».proof.Proof.Gen.ReferenceIdeal
import proofs.«152521_j18494129176961_1_alg».proof.Proof.Gen.ReferenceIdeal.Run
import proofs.«152521_j18494129176961_1_alg».proof.Proof.Gen.ReferenceIdeal.Read
import proofs.«152521_j18494129176961_1_alg».proof.Proof.Gen.Pre_finite_inputs
import proofs.«152521_j18494129176961_1_alg».proof.Proof.KernelRun
import proofs.«152521_j18494129176961_1_alg».proof.Proof.RefSide
import proofs.«152521_j18494129176961_1_alg».proof.Proof.Inputs
import Idealize.ShloMosaic.Adequacy
import Idealize.ShloMosaic.Init

noncomputable section

namespace Cert.Proof

open Idealize.ShloMosaic Idealize.SL.Sem

/-- The kernel as printed runs to the end and leaves its arguments alone. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel on the extended reals rewrote no operation. -/
theorem preserves : Cert.preserves_Kernel_KernelIdeal := trivial

/-- On the extended reals the kernel ends with the loss summed block by block and the reference with the loss summed at
    once, of arguments that agree; under the precondition the memberships are real, and the two losses are equal. -/
theorem algebraic : Cert.algebraic_KernelIdeal_ReferenceIdeal := by
  intro m ρ m' ρ' hpre hagree
  refine ⟨fun c => (fun _ => Cert.KernelIdeal.Whole.lossOf m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq, (hagree c).1, (hagree c).2.1,
    (hagree c).2.2]
  funext _
  exact Cert.Fcm.lossAll_eq_lossBlocks _ _ _ (Cert.Proof.Inputs.u_real m hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
